-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x10 : Shape := ⟨2, ![2000000, 10]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x10 : S_.BroadcastsInDim S2000000x10 (![] : Fin 0 → Fin S2000000x10.rank)
  reducesTo_S2000000x10_S_d0_1 : S2000000x10.ReducesTo [0, 1] S_

variable [Facts]

def fn_part1 {F : FTy → Type} [FloatOps F] (main_v13 : IVec S_ 1) (main_v16 : IVec S2000000x10 1) : IVec S_ 1 :=
  let main_c_5 : IVec S_ 1 := constantI S_ 1 1#1
  let main_v17 : IVec S_ 1 := (fun x v => Host.reduce IntOp.andi x v reducesTo_S2000000x10_S_d0_1 h_S_) main_v16 main_c_5
  let main_v18 : IVec S_ 1 := andi main_v13 main_v17
  main_v18

def fn {F : FTy → Type} [FloatOps F] (main_arg0 : FVec F S2000000x3 .f32) (main_arg1 : FVec F S2000000x3 .f32) (main_arg2 : IVec S2000000x10 32) (main_arg3 : FVec F S2000000x10 .f32) (main_arg4 : FVec F S2000000x10 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x10 .f32 := Host.absf main_arg3
  let main_cst_2 : FVec F S_ .f32 := constant S_ .f32 0x7F800000#32
  let main_v10 : FVec F S2000000x10 .f32 := broadcastInDim S2000000x10 ![] bcast_S_S2000000x10 main_cst_2
  let main_v11 : IVec S2000000x10 1 := cmpf .olt main_v9 main_v10
  let main_c_3 : IVec S_ 1 := constantI S_ 1 1#1
  let main_v12 : IVec S_ 1 := (fun x v => Host.reduce IntOp.andi x v reducesTo_S2000000x10_S_d0_1 h_S_) main_v11 main_c_3
  let main_v13 : IVec S_ 1 := andi main_v8 main_v12
  let main_v14 : FVec F S2000000x10 .f32 := Host.absf main_arg4
  let main_cst_4 : FVec F S_ .f32 := constant S_ .f32 0x7F800000#32
  let main_v15 : FVec F S2000000x10 .f32 := broadcastInDim S2000000x10 ![] bcast_S_S2000000x10 main_cst_4
  let main_v16 : IVec S2000000x10 1 := cmpf .olt main_v14 main_v15
  fn_part1 (F := F) main_v13 main_v16
-- ==== Kernel.lean ====
abbrev S2000000x3 : Shape := ⟨2, ![2000000, 3]⟩
abbrev S2000000x10 : Shape := ⟨2, ![2000000, 10]⟩
abbrev S2000000x1x3 : Shape := ⟨3, ![2000000, 1, 3]⟩
abbrev S_ : Shape := ⟨0, ![]⟩
abbrev S2000000x10x1 : Shape := ⟨3, ![2000000, 10, 1]⟩
abbrev S2000000x10x3 : Shape := ⟨3, ![2000000, 10, 3]⟩
abbrev S3x2000000 : Shape := ⟨2, ![3, 2000000]⟩
abbrev S10x2000000 : Shape := ⟨2, ![10, 2000000]⟩
abbrev S125x8x128 : Shape := ⟨3, ![125, 8, 128]⟩
abbrev S3x16000 : Shape := ⟨2, ![3, 16000]⟩
abbrev S10x16000 : Shape := ⟨2, ![10, 16000]⟩
abbrev S1x8x128 : Shape := ⟨3, ![1, 8, 128]⟩
abbrev S10 : Shape := ⟨1, ![10]⟩
abbrev S10x1 : Shape := ⟨2, ![10, 1]⟩
abbrev S1 : Shape := ⟨1, ![1]⟩
abbrev S1x1 : Shape := ⟨2, ![1, 1]⟩
abbrev S3 : Shape := ⟨1, ![3]⟩
abbrev S3x1 : Shape := ⟨2, ![3, 1]⟩
abbrev S8x128 : Shape := ⟨2, ![8, 128]⟩

abbrev nBuf : Space → Nat
  | .hbm => 60
  | .vmem => 16
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x10, .i32⟩
  | .hbm, ⟨3, _⟩ => ⟨S2000000x10, .f32⟩
  | .hbm, ⟨4, _⟩ => ⟨S2000000x10, .f32⟩
  | .hbm, ⟨5, _⟩ => ⟨S2000000x1x3, .f32⟩
  | .hbm, ⟨6, _⟩ => ⟨S_, .i32⟩
  | .hbm, ⟨7, _⟩ => ⟨S2000000x10, .i32⟩
  | .hbm, ⟨8, _⟩ => ⟨S2000000x10, .i1⟩
  | .hbm, ⟨9, _⟩ => ⟨S_, .i32⟩
  | .hbm, ⟨10, _⟩ => ⟨S2000000x10, .i32⟩
  | .hbm, ⟨11, _⟩ => ⟨S2000000x10, .i32⟩
  | .hbm, ⟨12, _⟩ => ⟨S2000000x10, .i32⟩
  | .hbm, ⟨13, _⟩ => ⟨S2000000x10x1, .i32⟩
  | .hbm, ⟨14, _⟩ => ⟨S2000000x10x3, .f32⟩
  | .hbm, ⟨15, _⟩ => ⟨S2000000x10x3, .f32⟩
  | .hbm, ⟨16, _⟩ => ⟨S2000000x10x3, .f32⟩
  | .hbm, ⟨17, _⟩ => ⟨S2000000x10x3, .f32⟩
  | .hbm, ⟨18, _⟩ => ⟨S_, .f32⟩
  | .hbm, ⟨19, _⟩ => ⟨S2000000x10, .f32⟩
  | .hbm, ⟨20, _⟩ => ⟨S_, .i32⟩
  | .hbm, ⟨21, _⟩ => ⟨S2000000x10, .i32⟩
  | .hbm, ⟨22, _⟩ => ⟨S2000000x10, .i1⟩
  | .hbm, ⟨23, _⟩ => ⟨S_, .i32⟩
  | .hbm, ⟨24, _⟩ => ⟨S2000000x10, .i32⟩
  | .hbm, ⟨25, _⟩ => ⟨S2000000x10, .i32⟩
  | .hbm, ⟨26, _⟩ => ⟨S2000000x10, .i32⟩
  | .hbm, ⟨27, _⟩ => ⟨S2000000x10x1, .i32⟩
  | .hbm, ⟨28, _⟩ => ⟨S2000000x10x3, .f32⟩
  | .hbm, ⟨29, _⟩ => ⟨S_, .i32⟩
  | .hbm, ⟨30, _⟩ => ⟨S2000000x10, .i32⟩
  | .hbm, ⟨31, _⟩ => ⟨S2000000x10, .i1⟩
  | .hbm, ⟨32, _⟩ => ⟨S_, .i32⟩
  | .hbm, ⟨33, _⟩ => ⟨S2000000x10, .i32⟩
  | .hbm, ⟨34, _⟩ => ⟨S2000000x10, .i32⟩
  | .hbm, ⟨35, _⟩ => ⟨S2000000x10, .i32⟩
  | .hbm, ⟨36, _⟩ => ⟨S2000000x10x1, .i32⟩
  | .hbm, ⟨37, _⟩ => ⟨S2000000x10x3, .f32⟩
  | .hbm, ⟨38, _⟩ => ⟨S2000000x10x3, .f32⟩
  | .hbm, ⟨39, _⟩ => ⟨S_, .f32⟩
  | .hbm, ⟨40, _⟩ => ⟨S2000000x3, .f32⟩
  | .hbm, ⟨41, _⟩ => ⟨S3x2000000, .f32⟩
  | .hbm, ⟨42, _⟩ => ⟨S3x2000000, .f32⟩
  | .hbm, ⟨43, _⟩ => ⟨S10x2000000, .f32⟩
  | .hbm, ⟨44, _⟩ => ⟨S10x2000000, .f32⟩
  | .hbm, ⟨45, _⟩ => ⟨S10x2000000, .f32⟩
  | .hbm, ⟨46, _⟩ => ⟨S3x2000000, .f32⟩
  | .hbm, ⟨47, _⟩ => ⟨S125x8x128, .f32⟩
  | .hbm, ⟨48, _⟩ => ⟨S125x8x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S3x16000, .f32⟩
  | .local _ .vmem, ⟨1, _⟩ => ⟨S3x16000, .f32⟩
  | .local _ .vmem, ⟨2, _⟩ => ⟨S3x16000, .f32⟩
  | .local _ .vmem, ⟨3, _⟩ => ⟨S3x16000, .f32⟩
  | .local _ .vmem, ⟨4, _⟩ => ⟨S10x16000, .f32⟩
  | .local _ .vmem, ⟨5, _⟩ => ⟨S10x16000, .f32⟩
  | .local _ .vmem, ⟨6, _⟩ => ⟨S10x16000, .f32⟩
  | .local _ .vmem, ⟨7, _⟩ => ⟨S10x16000, .f32⟩
  | .local _ .vmem, ⟨8, _⟩ => ⟨S10x16000, .f32⟩
  | .local _ .vmem, ⟨9, _⟩ => ⟨S10x16000, .f32⟩
  | .local _ .vmem, ⟨10, _⟩ => ⟨S3x16000, .f32⟩
  | .local _ .vmem, ⟨11, _⟩ => ⟨S3x16000, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S2000000x3_S2000000x1x3_0_2 : S2000000x3.BroadcastsInDim S2000000x1x3 (![0, 2] : Fin 2 → Fin S2000000x1x3.rank)
  bcast_S_S2000000x10 : S_.BroadcastsInDim S2000000x10 (![] : Fin 0 → Fin S2000000x10.rank)
  bcast_S2000000x10_S2000000x10x1_0_1 : S2000000x10.BroadcastsInDim S2000000x10x1 (![0, 1] : Fin 2 → Fin S2000000x10x1.rank)
  bcast_S2000000x1x3_S2000000x10x3_0_1_2 : S2000000x1x3.BroadcastsInDim S2000000x10x3 (![0, 1, 2] : Fin 3 → Fin S2000000x10x3.rank)
  reducesTo_S2000000x10x3_S2000000x10_d2 : S2000000x10x3.ReducesTo [2] S2000000x10
  h_S_ : 0 < S_.numel
  reducesTo_S2000000x10x3_S2000000x3_d1 : S2000000x10x3.ReducesTo [1] S2000000x3
  transposes_S2000000x3_S3x2000000_1_0 : S2000000x3.Transposes [1, 0] S3x2000000
  transposes_S2000000x10_S10x2000000_1_0 : S2000000x10.Transposes [1, 0] S10x2000000
  inb_S3x16000_S3x16000_0_0 : ∀ a, (![0, 0] : Fin 2 → Nat) a + S3x16000.size a ≤ S3x16000.size a
  h_S3x16000 : 0 < S3x16000.numel
  shapeCasts_S3x16000_S3x16000 : S3x16000.ShapeCasts S3x16000
  inb_S10x16000_S10x16000_0_0 : ∀ a, (![0, 0] : Fin 2 → Nat) a + S10x16000.size a ≤ S10x16000.size a
  h_S10x16000 : 0 < S10x16000.numel
  shapeCasts_S10x16000_S10x16000 : S10x16000.ShapeCasts S10x16000
  reduces_S10x16000_S10 : S10x16000.Reduces [1] S10
  shapeCasts_S10_S10x1 : S10.ShapeCasts S10x1
  reduces_S10x1_S1 : S10x1.Reduces [0] S1
  shapeCasts_S1_S1x1 : S1.ShapeCasts S1x1
  reduces_S3x16000_S3 : S3x16000.Reduces [1] S3
  shapeCasts_S3_S3x1 : S3.ShapeCasts S3x1
  reduces_S3x1_S1 : S3x1.Reduces [0] S1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S125x8x128_S_d0_1_2 : S125x8x128.ReducesTo [0, 1, 2] S_
  gather_S2000000x3_S2000000x10x1_S2000000x10x3_2_0_n_n_0_2_13_wf : GatherDims.WF S2000000x3 S2000000x10x1 S2000000x10x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x2000000.size a
  hwx0_0 : ∀ i : grid0.Coords, EltTy.bits .f32 = 32 ∨ (Rect.block (s := S3x2000000) S3x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x2000000.size a
  hwx0_1 : ∀ i : grid0.Coords, EltTy.bits .f32 = 32 ∨ (Rect.block (s := S3x2000000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x16000.size a ≤ S10x2000000.size a
  hwx0_2 : ∀ i : grid0.Coords, EltTy.bits .f32 = 32 ∨ (Rect.block (s := S10x2000000) S10x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x16000.size a ≤ S10x2000000.size a
  hwx0_3 : ∀ i : grid0.Coords, EltTy.bits .f32 = 32 ∨ (Rect.block (s := S10x2000000) S10x16000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x16000.size a ≤ S10x2000000.size a
  hwx0_4 : ∀ i : grid0.Coords, EltTy.bits .f32 = 32 ∨ (Rect.block (s := S10x2000000) S10x16000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x16000.size a ≤ S3x2000000.size a
  hwx0_5 : ∀ i : grid0.Coords, EltTy.bits .f32 = 32 ∨ (Rect.block (s := S3x2000000) S3x16000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S125x8x128.size a
  hwx0_6 : ∀ i : grid0.Coords, EltTy.bits .f32 = 32 ∨ (Rect.block (s := S125x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S125x8x128.size a
  hwx0_7 : ∀ i : grid0.Coords, EltTy.bits .f32 = 32 ∨ (Rect.block (s := S125x8x128) S1x8x128.size (cc0_transform_7 i) (hinb0_7 i)).WholeWords (EltTy.packing .f32)

variable [Facts₀]

def gather_S2000000x3_S2000000x10x1_S2000000x10x3_2_0_n_n_0_2_13 : GatherDims S2000000x3 S2000000x10x1 S2000000x10x3 where
  offsetDims := [2]
  collapsedSliceDims := [0]
  operandBatchingDims := []
  startIndicesBatchingDims := []
  startIndexMap := [0]
  indexVectorDim := 2
  sliceSizes := ![1, 3]
  wf := gather_S2000000x3_S2000000x10x1_S2000000x10x3_2_0_n_n_0_2_13_wf

abbrev win0_0 : Pipeline.Window sig grid0 :=
  Pipeline.Window.ofSpec (Memref.whole main_v28) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S10x16000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S3x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x10 : Shape := ⟨2, ![2000000, 10]⟩
abbrev S_ : Shape := ⟨0, ![]⟩
abbrev S2000000x10x1 : Shape := ⟨3, ![2000000, 10, 1]⟩
abbrev S2000000x10x3 : Shape := ⟨3, ![2000000, 10, 3]⟩
abbrev S2000000x1x3 : Shape := ⟨3, ![2000000, 1, 3]⟩

abbrev nBuf : Space → Nat
  | .hbm => 52
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x10, .i32⟩
  | .hbm, ⟨3, _⟩ => ⟨S2000000x10, .f32⟩
  | .hbm, ⟨4, _⟩ => ⟨S2000000x10, .f32⟩
  | .hbm, ⟨5, _⟩ => ⟨S_, .i32⟩
  | .hbm, ⟨6, _⟩ => ⟨S2000000x10, .i32⟩
  | .hbm, ⟨7, _⟩ => ⟨S2000000x10, .i1⟩
  | .hbm, ⟨8, _⟩ => ⟨S_, .i32⟩
  | .hbm, ⟨9, _⟩ => ⟨S2000000x10, .i32⟩
  | .hbm, ⟨10, _⟩ => ⟨S2000000x10, .i32⟩
  | .hbm, ⟨11, _⟩ => ⟨S2000000x10, .i32⟩
  | .hbm, ⟨12, _⟩ => ⟨S2000000x10x1, .i32⟩
  | .hbm, ⟨13, _⟩ => ⟨S2000000x10x3, .f32⟩
  | .hbm, ⟨14, _⟩ => ⟨S2000000x1x3, .f32⟩
  | .hbm, ⟨15, _⟩ => ⟨S2000000x10x3, .f32⟩
  | .hbm, ⟨16, _⟩ => ⟨S2000000x10x3, .f32⟩
  | .hbm, ⟨17, _⟩ => ⟨S2000000x10x3, .f32⟩
  | .hbm, ⟨18, _⟩ => ⟨S_, .f32⟩
  | .hbm, ⟨19, _⟩ => ⟨S2000000x10, .f32⟩
  | .hbm, ⟨20, _⟩ => ⟨S2000000x10, .f32⟩
  | .hbm, ⟨21, _⟩ => ⟨S2000000x10, .f32⟩
  | .hbm, ⟨22, _⟩ => ⟨S2000000x10, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S2000000x10, .i32⟩
  | .hbm, ⟨29, _⟩ => ⟨S2000000x10, .i1⟩
  | .hbm, ⟨30, _⟩ => ⟨S_, .i32⟩
  | .hbm, ⟨31, _⟩ => ⟨S2000000x10, .i32⟩
  | .hbm, ⟨32, _⟩ => ⟨S2000000x10, .i32⟩
  | .hbm, ⟨33, _⟩ => ⟨S2000000x10, .i32⟩
  | .hbm, ⟨34, _⟩ => ⟨S2000000x10x1, .i32⟩
  | .hbm, ⟨35, _⟩ => ⟨S2000000x10x3, .f32⟩
  | .hbm, ⟨36, _⟩ => ⟨S2000000x10x3, .f32⟩
  | .hbm, ⟨37, _⟩ => ⟨S_, .f32⟩
  | .hbm, ⟨38, _⟩ => ⟨S2000000x3, .f32⟩
  | .hbm, ⟨39, _⟩ => ⟨S_, .f32⟩
  | .hbm, ⟨40, _⟩ => ⟨S2000000x3, .f32⟩
  | .hbm, ⟨41, _⟩ => ⟨S2000000x3, .f32⟩
  | .hbm, ⟨42, _⟩ => ⟨S2000000x3, .f32⟩
  | .hbm, ⟨43, _⟩ => ⟨S2000000x3, .f32⟩
  | .hbm, ⟨44, _⟩ => ⟨S2000000x3, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S2000000x10 : S_.BroadcastsInDim S2000000x10 (![] : Fin 0 → Fin S2000000x10.rank)
  bcast_S2000000x10_S2000000x10x1_0_1 : S2000000x10.BroadcastsInDim S2000000x10x1 (![0, 1] : Fin 2 → Fin S2000000x10x1.rank)
  bcast_S2000000x3_S2000000x1x3_0_2 : S2000000x3.BroadcastsInDim S2000000x1x3 (![0, 2] : Fin 2 → Fin S2000000x1x3.rank)
  bcast_S2000000x1x3_S2000000x10x3_0_1_2 : S2000000x1x3.BroadcastsInDim S2000000x10x3 (![0, 1, 2] : Fin 3 → Fin S2000000x10x3.rank)
  reducesTo_S2000000x10x3_S2000000x10_d2 : S2000000x10x3.ReducesTo [2] S2000000x10
  h_S_ : 0 < S_.numel
  reducesTo_S2000000x10_S_d0_1 : S2000000x10.ReducesTo [0, 1] S_
  reducesTo_S2000000x10x3_S2000000x3_d1 : S2000000x10x3.ReducesTo [1] S2000000x3
  bcast_S_S2000000x3 : S_.BroadcastsInDim S2000000x3 (![] : Fin 0 → Fin S2000000x3.rank)
  reducesTo_S2000000x3_S_d0_1 : S2000000x3.ReducesTo [0, 1] S_
  gather_S2000000x3_S2000000x10x1_S2000000x10x3_2_0_n_n_0_2_13_wf : GatherDims.WF S2000000x3 S2000000x10x1 S2000000x10x3 [2] [0] [] [0] [] 2 ![1, 3]

variable [Facts₀]

def gather_S2000000x3_S2000000x10x1_S2000000x10x3_2_0_n_n_0_2_13 : GatherDims S2000000x3 S2000000x10x1 S2000000x10x3 where
  offsetDims := [2]
  collapsedSliceDims := [0]
  operandBatchingDims := []
  startIndicesBatchingDims := []
  startIndexMap := [0]
  indexVectorDim := 2
  sliceSizes := ![1, 3]
  wf := gather_S2000000x3_S2000000x10x1_S2000000x10x3_2_0_n_n_0_2_13_wf

class Facts : Prop extends Facts₀ where

variable [Facts]
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.LibTileSums.lean ====
/-
  Sums over index sets taken in another order.

  * `sum_idx3`: a sum over the indices of a rank-3 array is the triple sum over its coordinates.
  * `sum_corner_tiles`: an array of T tiles of 8 × 128 entries, each zero away from its corner entry (t, 0, 0), totals
    to the sum over t of the corner entries.
  * `sum_rows_in_runs`: the rows of an N × K table, N = a · b, summed run by run — for each of the a runs, for each
    column, over the run's b rows — give the table's total.
  All three hold in any commutative monoid, so on the extended reals too, where no entry needs to be finite.
-/
import Idealize.ShloMosaic.PureOps.Ideal
import Idealize.ShloMosaic.Lib.ValueIdx
import proofs.«113898_j56229711839859_2_alg».proof.Proof.LibSumRuns

noncomputable section

open scoped BigOperators

namespace Cert.Proof.Sums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Tiles that are zero away from their corner: the total is the sum of the corner entries. -/
theorem sum_corner_tiles {M : Type*} [AddCommMonoid M] {T : Nat} (s : Fin T → M)
    (A : (⟨3, ![T, 8, 128]⟩ : Shape).Idx → M)
    (hA : ∀ (t : Fin T) (p : Fin 8) (q : Fin 128), A (ix3 t p q) = if p.val = 0 ∧ q.val = 0 then s t else 0) :
    ∑ i, A i = ∑ t : Fin T, s t := by
  rw [sum_idx3]
  refine Finset.sum_congr rfl fun t _ => ?_
  rw [Finset.sum_eq_single (0 : Fin 8)]
  · rw [Finset.sum_eq_single (0 : Fin 128)]
    · rw [hA, if_pos ⟨rfl, rfl⟩]
    · intro q _ hq
      rw [hA, if_neg]
      rintro ⟨-, h⟩
      exact hq (Fin.ext h)
    · intro h; exact absurd (Finset.mem_univ _) h
  · intro p _ hp
    refine Finset.sum_eq_zero fun q _ => ?_
    rw [hA, if_neg]
    rintro ⟨h, -⟩
    exact hp (Fin.ext h)
  · intro h; exact absurd (Finset.mem_univ _) h

/-- The rows of an N × K table, N = a · b, summed run by run (for each run, for each column, over the run's rows), give
    the table's total. -/
theorem sum_rows_in_runs {M : Type*} [AddCommMonoid M] (a b K N : Nat) (hN : N = a * b) (f : Fin N → Fin K → M) :
    ∑ t : Fin a, ∑ k : Fin K, ∑ l : Fin b, f ⟨b * t.val + l.val, by
        subst hN
        have ht := t.isLt; have hl := l.isLt
        calc b * t.val + l.val < b * t.val + b := by omega
          _ = b * (t.val + 1) := by ring
          _ ≤ b * a := Nat.mul_le_mul_left b ht
          _ = a * b := Nat.mul_comm b a⟩ k
      = ∑ n : Fin N, ∑ k : Fin K, f n k := by
  subst hN
  -- the table's row sums, continued by zero past the last row
  let g : ℕ → M := fun n => if h : n < a * b then ∑ k : Fin K, f ⟨n, h⟩ k else 0
  have hR : ∑ n : Fin (a * b), ∑ k : Fin K, f n k = ∑ n : Fin (a * b), g n.val :=
    Finset.sum_congr rfl fun n _ => by show _ = dite _ _ _; rw [dif_pos n.isLt]
  rw [hR, ← Cert.LibSumRuns.sum_fin_runs g a b, ← Fin.sum_univ_eq_sum_range (fun d => ∑ l : Fin b, g (b * d + l.val)) a]
  refine Finset.sum_congr rfl fun t _ => ?_
  rw [Finset.sum_comm]
  refine Finset.sum_congr rfl fun l _ => ?_
  have hlt : b * t.val + l.val < a * b := by
    have ht := t.isLt; have hl := l.isLt
    calc b * t.val + l.val < b * t.val + b := by omega
      _ = b * (t.val + 1) := by ring
      _ ≤ b * a := Nat.mul_le_mul_left b ht
      _ = a * b := Nat.mul_comm b a
  show _ = dite _ _ _
  rw [dif_pos hlt]

end Cert.Proof.Sums

end
-- ==== Proof.Spec.lean ====
/-
  The loss, as both programs compute it.

  There are N = 2 000 000 points, each with K = 10 neighbours and 3 coordinates. From two tables the loss is
      (0 + Σ over the N × 10 table of |(s − d) · w|) / 20 000 000  +  1 · ((0 + Σ over the N × 3 table of |x − (g / 10 + y)|) / 6 000 000).
  The reference sums each table whole. The kernel works on the transposed tables, 16 000 columns per grid step: step t
  totals its block (`step1`, `step2`) and writes the total to the corner of an 8 × 128 tile of zeros (`tiles`); the
  125 tiles are then summed. `total1` and `total2` say the step totals add up to the whole-table sums — a regrouping
  of a finite sum in a commutative monoid, so no entry needs to be finite — and, for the second table, that dividing by
  ten is multiplying by one tenth on every extended real.
-/
import Idealize.ShloMosaic.PureOps.Ideal
import Idealize.ShloMosaic.PureOps.Ideal.Laws
import Idealize.ShloMosaic.Lib.ValueIdx
import Idealize.ShloMosaic.Lib.ValueLayout
import proofs.«113898_j56229711839859_2_alg».proof.Proof.LibTileSums

noncomputable section

open scoped BigOperators

namespace Cert.Proof.Spec

open Idealize.ShloMosaic Idealize.ShloMosaic.ValueIdx Cert.Proof.Sums

/-- Column 16000 · t + l: lane l of step t's block. -/
abbrev Col (t : Fin 125) (l : Fin 16000) : Fin 2000000 :=
  ⟨16000 * t.val + l.val, by have := t.isLt; have := l.isLt; omega⟩

/-- Step t's total of the first term, over the transposed tables d, w, s (10 rows, N columns). -/
def step1 (d w s : (⟨2, ![10, 2000000]⟩ : Shape).Idx → EReal) (t : Fin 125) : EReal :=
  ∑ k : Fin 10, ∑ l : Fin 16000,
    FloatOps.absf (F := Ideal) (φ := .f32) ((s (ix2 k (Col t l)) - d (ix2 k (Col t l))) * w (ix2 k (Col t l)))

/-- Step t's total of the second term, over the transposed tables x, y, g (3 rows, N columns). -/
def step2 (x y g : (⟨2, ![3, 2000000]⟩ : Shape).Idx → EReal) (t : Fin 125) : EReal :=
  ∑ k : Fin 3, ∑ l : Fin 16000,
    FloatOps.absf (F := Ideal) (φ := .f32)
      (x (ix2 k (Col t l)) - (g (ix2 k (Col t l)) * ((1 / 10 : ℝ) : EReal) + y (ix2 k (Col t l))))

/-- 125 tiles of 8 × 128 entries: tile t holds `s t` at its corner and zero elsewhere. -/
def tiles (s : Fin 125 → EReal) : (⟨3, ![125, 8, 128]⟩ : Shape).Idx → EReal := fun i =>
  if (i 1).val = 0 ∧ (i 2).val = 0 then s ⟨(i 0).val, (i 0).isLt⟩ else 0

theorem tiles_apply (s : Fin 125 → EReal) (t : Fin 125) (p : Fin 8) (q : Fin 128) :
    tiles s (ix3 t p q) = if p.val = 0 ∧ q.val = 0 then s t else 0 := rfl

/-- The tiles total to the sum of the step totals. -/
theorem sum_tiles (s : Fin 125 → EReal) : ∑ i, tiles s i = ∑ t : Fin 125, s t :=
  sum_corner_tiles s (tiles s) (tiles_apply s)

/-- The loss from the two table totals: the divisors 2·10⁷ and 6·10⁶, the weight 1 and the sums' initial value 0 are
    kept as the words both programs print. -/
def loss (s1 s2 : EReal) : EReal :=
  Ideal.div (Ideal.ofBits .f32 0x00000000#32 + s1) (Ideal.ofBits .f32 0x4B989680#32)
    + Ideal.ofBits .f32 0x3F800000#32 * Ideal.div (Ideal.ofBits .f32 0x00000000#32 + s2) (Ideal.ofBits .f32 0x4AB71B00#32)

/-- The first table: the step totals over the transposed tables add up to the whole-table sum. -/
theorem total1 (s d w : (⟨2, ![2000000, 10]⟩ : Shape).Idx → EReal)
    (h : (⟨2, ![2000000, 10]⟩ : Shape).Transposes [1, 0] ⟨2, ![10, 2000000]⟩) :
    ∑ t : Fin 125, step1 (transpose ⟨2, ![10, 2000000]⟩ [1, 0] d h) (transpose ⟨2, ![10, 2000000]⟩ [1, 0] w h)
        (transpose ⟨2, ![10, 2000000]⟩ [1, 0] s h) t
      = ∑ j, FloatOps.absf (F := Ideal) (φ := .f32) ((s j - d j) * w j) := by
  refine Eq.trans ?_ (sum_idx2 _).symm
  refine Eq.trans ?_ (sum_rows_in_runs 125 16000 10 2000000 rfl
    (fun n k => FloatOps.absf (F := Ideal) (φ := .f32) ((s (ix2 n k) - d (ix2 n k)) * w (ix2 n k))))
  refine Finset.sum_congr rfl fun t _ => Finset.sum_congr rfl fun k _ => Finset.sum_congr rfl fun l _ => ?_
  rw [transpose_ix2_apply, transpose_ix2_apply, transpose_ix2_apply]

/-- The f32 word of the reference's divisor is the real number ten. -/
theorem ofBits_ten : Ideal.ofBits .f32 0x41200000#32 = ((10 : ℝ) : EReal) := by
  simp [Ideal.ofBits, Ideal.ieee, -EReal.coe_mul]; norm_num

/-- The second table likewise; the reference's quotient by ten is the kernel's product with one tenth. -/
theorem total2 (x y g : (⟨2, ![2000000, 3]⟩ : Shape).Idx → EReal)
    (h : (⟨2, ![2000000, 3]⟩ : Shape).Transposes [1, 0] ⟨2, ![3, 2000000]⟩) :
    ∑ t : Fin 125, step2 (transpose ⟨2, ![3, 2000000]⟩ [1, 0] x h) (transpose ⟨2, ![3, 2000000]⟩ [1, 0] y h)
        (transpose ⟨2, ![3, 2000000]⟩ [1, 0] g h) t
      = ∑ j, FloatOps.absf (F := Ideal) (φ := .f32)
          (x j - (Ideal.div (g j) (Ideal.ofBits .f32 0x41200000#32) + y j)) := by
  refine Eq.trans ?_ (sum_idx2 _).symm
  refine Eq.trans ?_ (sum_rows_in_runs 125 16000 3 2000000 rfl
    (fun n k => FloatOps.absf (F := Ideal) (φ := .f32)
      (x (ix2 n k) - (Ideal.div (g (ix2 n k)) (Ideal.ofBits .f32 0x41200000#32) + y (ix2 n k)))))
  refine Finset.sum_congr rfl fun t _ => Finset.sum_congr rfl fun k _ => Finset.sum_congr rfl fun l _ => ?_
  rw [transpose_ix2_apply, transpose_ix2_apply, transpose_ix2_apply, ofBits_ten,
    Ideal.div_coe (by norm_num : (10 : ℝ) ≠ 0)]

end Cert.Proof.Spec

end
-- ==== Proof.Bridge.lean ====
/-
  The reference's result is the loss of its two whole-table sums.

  `lossOf` is the loss as a function of the five argument arrays: the two tables are built from the squared neighbour
  distances and the summed neighbour displacements — the reference's own stages, which the kernel's host code computes
  by the same operations — and each is summed whole. The reference's last stage, read one operation at a time, is
  exactly that.
-/
import proofs.«113898_j56229711839859_2_alg».proof.Proof.Gen.ReferenceIdeal.Read
import proofs.«113898_j56229711839859_2_alg».proof.Proof.Spec

noncomputable section

open scoped BigOperators

namespace Cert.Proof.Bridge

open Idealize.ShloMosaic Idealize.ShloMosaic.ValueIdx Cert.ReferenceIdeal Cert.ReferenceIdeal.Read Cert.Proof

/-- The first table's whole sum: |(squared distance − given distance) · weight| over every point and neighbour. -/
def sum1 (x0 : S2000000x3.Idx → EReal) (x2 : S2000000x10.Idx → BitVec 32) (x3 x4 : S2000000x10.Idx → EReal) : EReal :=
  ∑ j, FloatOps.absf (F := Ideal) (φ := .f32) ((val_main_v11 (F := Ideal) x0 x2 j - x3 j) * x4 j)

/-- The second table's whole sum: |point − (summed displacement / 10 + initial position)| over every point and coordinate. -/
def sum2 (x0 x1 : S2000000x3.Idx → EReal) (x2 : S2000000x10.Idx → BitVec 32) : EReal :=
  ∑ j, FloatOps.absf (F := Ideal) (φ := .f32)
    (x0 j - (Ideal.div (val_main_v25 (F := Ideal) x0 x1 x2 j) (Ideal.ofBits .f32 0x41200000#32) + x1 j))

/-- The loss of the five argument arrays. -/
def lossOf (x0 x1 : S2000000x3.Idx → EReal) (x2 : S2000000x10.Idx → BitVec 32) (x3 x4 : S2000000x10.Idx → EReal) : EReal :=
  Spec.loss (sum1 x0 x2 x3 x4) (sum2 x0 x1 x2)

/-- An entry of the reference's first table. -/
theorem entry1 (x0 : S2000000x3.Idx → EReal) (x2 : S2000000x10.Idx → BitVec 32) (x3 x4 : S2000000x10.Idx → EReal)
    (j : S2000000x10.Idx) :
    val_main_v14 (F := Ideal) x0 x2 x3 x4 j
      = FloatOps.absf (F := Ideal) (φ := .f32) ((val_main_v11 (F := Ideal) x0 x2 j - x3 j) * x4 j) := by
  rw [val_main_v14_apply, val_main_v13_apply, val_main_v12_apply]
  generalize val_main_v11 (F := Ideal) x0 x2 j = a
  rfl

/-- An entry of the reference's second table. -/
theorem entry2 (x0 x1 : S2000000x3.Idx → EReal) (x2 : S2000000x10.Idx → BitVec 32) (j : S2000000x3.Idx) :
    val_main_v30 (F := Ideal) x0 x1 x2 j
      = FloatOps.absf (F := Ideal) (φ := .f32)
          (x0 j - (Ideal.div (val_main_v25 (F := Ideal) x0 x1 x2 j) (Ideal.ofBits .f32 0x41200000#32) + x1 j)) := by
  rw [val_main_v30_apply, val_main_v29_apply, val_main_v28_apply, val_main_v27_apply, val_main_v26_apply,
    val_main_cst_6_apply]
  generalize val_main_v25 (F := Ideal) x0 x1 x2 j = a
  rfl

/-- The reference's result, at its one index, is the loss. -/
theorem ref_eq (x0 x1 : S2000000x3.Idx → EReal) (x2 : S2000000x10.Idx → BitVec 32) (x3 x4 : S2000000x10.Idx → EReal) :
    val_main_v34 (F := Ideal) x0 x1 x2 x3 x4 = fun _ => lossOf x0 x1 x2 x3 x4 := by
  funext i
  rw [val_main_v34_apply, val_main_v16_apply, val_main_v15_apply, val_main_v33_apply, val_main_v32_apply,
    val_main_v31_apply]
  have hs1 : ∑ j, val_main_v14 (F := Ideal) x0 x2 x3 x4 j = sum1 x0 x2 x3 x4 := by
    unfold sum1
    exact Finset.sum_congr rfl fun j _ => entry1 x0 x2 x3 x4 j
  have hs2 : ∑ j, val_main_v30 (F := Ideal) x0 x1 x2 j = sum2 x0 x1 x2 := by
    unfold sum2
    exact Finset.sum_congr rfl fun j _ => entry2 x0 x1 x2 j
  rw [hs1, hs2]
  unfold lossOf
  generalize sum1 x0 x2 x3 x4 = s1
  generalize sum2 x0 x1 x2 = s2
  rfl

end Cert.Proof.Bridge

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibColumnSum.lean ====
/-
  A sum down a one-lane column, read at an index of literal coordinates.

  A kernel that totals an `a × b` array one axis at a time first sums the lanes of each row, keeps the row sums as an
  `a × 1` column, and then sums the column's `a` entries into a single entry. Read at the extended reals:

  * `lift_cols`: over the one kept index, the source index whose row coordinate is `k` is `(k, 0)`;
  * `multiReduction_add_cols`: the sum down the column `x : [a, 1]` is `∑ k, x (k, 0)`.
-/
import Idealize.ShloMosaic.PureOps.Ideal
import Idealize.ShloMosaic.PureOps.Ideal.Laws
import Idealize.ShloMosaic.Lib.ValueIdx

noncomputable section

open scoped BigOperators

namespace Cert.Proof.ColumnSum

open Idealize.ShloMosaic Idealize.ShloMosaic.ValueIdx

/-- Over the one kept index, the source index whose row coordinate is `k` is `(k, 0)`. -/
theorem lift_cols {a : ℕ} (h : (⟨2, ![a, 1]⟩ : Shape).Reduces [(0 : Fin 2)] ⟨1, ![1]⟩) (u : Fin 1) (k : Fin a) :
    h.lift (ix1 u) k = ix2 k (0 : Fin 1) := by
  funext c
  refine Fin.ext ?_
  match c with
  | ⟨0, _⟩ => rfl
  | ⟨1, _⟩ =>
    show u.val = 0
    omega

/-- A float sum down an `a × 1` column, at the extended reals, is `∑ k, x (k, 0)`. The accumulator fact is taken in the
    form a printed program carries it. -/
theorem multiReduction_add_cols {a : ℕ} {φ : FTy} (x : FVec Ideal ⟨2, ![a, 1]⟩ φ) (acc : BitVec φ.bits)
    (h : (⟨2, ![a, 1]⟩ : Shape).Reduces [(0 : Fin 2)] ⟨1, ![1]⟩) (hφ : FKind.Formats φ)
    (hacc : acc = FKind.add.neutral φ hφ) (u : Fin 1) :
    multiReduction .add [(0 : Fin 2)] ⟨1, ![1]⟩ x acc h hφ hacc (ix1 u) = ∑ k : Fin a, x (ix2 k (0 : Fin 1)) := by
  refine (Ideal.multiReduction_add_single x acc h hφ hacc (ix1 u)).trans ?_
  exact Finset.sum_congr rfl fun k _ => congrArg x (lift_cols h u k)

end Cert.Proof.ColumnSum

end
-- ==== Proof.Tile.lean ====
/-
  The two tiles one grid step writes, read at an index.

  A step's body totals an absolute-value array over its block — first along the lanes of each row, then down the
  column of row sums — and stores the total at entry (0, 0) of an 8 × 128 tile whose other entries are zero. This
  module reads both tiles at an index (u, p, q) of the stored 1 × 8 × 128 block, at the extended reals, over the
  loaded blocks as variables:

  * the first tile holds, at (0, 0), the sum over rows k and lanes l of |(s (k,l) − d (k,l)) · w (k,l)|;
  * the second holds, at (0, 0), the sum over rows and lanes of |x (k,l) − (g (k,l) · c + y (k,l))|, c the named
    constant one tenth;
  * every other entry of either tile is 0.
-/
import proofs.«113898_j56229711839859_2_alg».proof.Proof.Gen.KernelIdeal.Skeleton
import proofs.«113898_j56229711839859_2_alg».proof.Proof.LibColumns
import proofs.«113898_j56229711839859_2_alg».proof.Proof.LibColumnSum
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Tile

open Idealize.ShloMosaic Idealize.ShloMosaic.ValueIdx Cert.KernelIdeal Cert.KernelIdeal.Gen

/-- The tile's mask — row coordinate zero and lane coordinate zero — is the bit 1 at (0, 0) and 0 elsewhere. -/
theorem mask_apply (p : Fin 8) (q : Fin 128) :
    k0_pay4 (ix2 p q) = if p.val = 0 ∧ q.val = 0 then 1#1 else 0#1 := by
  unfold k0_pay4
  show IntOp.andi (IntOp.cmpi .eq (iota .tc S8x128 32 [0] iota_S8x128_d0_w32 (ix2 p q)) 0#32)
      (IntOp.cmpi .eq (iota .tc S8x128 32 [1] iota_S8x128_d1_w32 (ix2 p q)) 0#32) = _
  rw [iota_single_apply, iota_single_apply]
  show IntOp.andi (IntOp.cmpi .eq (BitVec.ofNat 32 p.val) 0#32) (IntOp.cmpi .eq (BitVec.ofNat 32 q.val) 0#32) = _
  revert p q
  decide +kernel

/-- The total of an a × b array — lanes first, then down the column of row sums — spread over an 8 × 128 tile: every
    entry of the tile is the double sum over rows and lanes. -/
theorem spread_total_apply {a b : ℕ} (x : FVec Ideal ⟨2, ![a, b]⟩ .f32)
    (h1 : (⟨2, ![a, b]⟩ : Shape).Reduces [(1 : Fin 2)] ⟨1, ![a]⟩) (hφ1 : FKind.Formats .f32)
    (hacc1 : (0x00000000#32 : BitVec 32) = FKind.add.neutral .f32 hφ1)
    (hc1 : (⟨1, ![a]⟩ : Shape).ShapeCasts ⟨2, ![a, 1]⟩)
    (h2 : (⟨2, ![a, 1]⟩ : Shape).Reduces [(0 : Fin 2)] ⟨1, ![1]⟩) (hφ2 : FKind.Formats .f32)
    (hacc2 : (0x00000000#32 : BitVec 32) = FKind.add.neutral .f32 hφ2)
    (hc2 : (⟨1, ![1]⟩ : Shape).ShapeCasts ⟨2, ![1, 1]⟩)
    (hb : (⟨2, ![1, 1]⟩ : Shape).Broadcasts ⟨2, ![8, 128]⟩) (p : Fin 8) (q : Fin 128) :
    broadcastTo ⟨2, ![8, 128]⟩ (shapeCast ⟨2, ![1, 1]⟩ (multiReduction .add [(0 : Fin 2)] ⟨1, ![1]⟩
        (shapeCast ⟨2, ![a, 1]⟩ (multiReduction .add [(1 : Fin 2)] ⟨1, ![a]⟩ x 0x00000000#32 h1 hφ1 hacc1) hc1)
        0x00000000#32 h2 hφ2 hacc2) hc2) hb (ix2 p q)
      = ∑ k : Fin a, ∑ l : Fin b, x (ix2 k l) := by
  refine (broadcastTo_apply _ hb (ix2 p q) (ix2 (0 : Fin 1) (0 : Fin 1)) fun ax => ?_).trans ?_
  · match ax with
    | ⟨0, _⟩ => rfl
    | ⟨1, _⟩ => rfl
  refine (shapeCast_a_1a_apply _ hc2 (0 : Fin 1) (0 : Fin 1)).trans ?_
  refine (Cert.Proof.ColumnSum.multiReduction_add_cols _ _ h2 hφ2 hacc2 (0 : Fin 1)).trans ?_
  refine Finset.sum_congr rfl fun k _ => ?_
  refine (Cert.Proof.Columns.shapeCast_a_a1_apply _ hc1 k (0 : Fin 1)).trans ?_
  exact Cert.Proof.Columns.multiReduction_add_rows x _ h1 hφ1 hacc1 k

/-- The first tile before its leading unit axis is added. -/
theorem pay5_apply (x2 x3 x4 : Vec Ideal S10x16000 .f32) (p : Fin 8) (q : Fin 128) :
    k0_pay5 (F := Ideal) x2 x3 x4 (ix2 p q)
      = if p.val = 0 ∧ q.val = 0 then
          ∑ k : Fin 10, ∑ l : Fin 16000,
            FloatOps.absf (F := Ideal) (φ := .f32) ((x4 (ix2 k l) - x2 (ix2 k l)) * x3 (ix2 k l))
        else 0 := by
  unfold k0_pay5
  simp only [shapeCast_self]
  rw [select_apply, mask_apply]
  refine (congrArg (fun z => Scalar.select _ z _)
    (spread_total_apply (absf (mulf (subf x4 x2) x3)) _ _ _ _ _ _ _ _ _ p q)).trans ?_
  by_cases hc : p.val = 0 ∧ q.val = 0
  · rw [if_pos hc, if_pos hc, select_one]
    rfl
  · rw [if_neg hc, if_neg hc, select_zero]
    exact Ideal.ofBits_zero_f32

/-- THE FIRST TILE at (u, p, q): the block's total of |(s − d) · w| at (0, 0), zero elsewhere. -/
theorem tile1_apply (x2 x3 x4 : Vec Ideal S10x16000 .f32) (u : Fin 1) (p : Fin 8) (q : Fin 128) :
    k0_pay1 (F := Ideal) (k0_pay5 x2 x3 x4) (ix3 u p q)
      = if p.val = 0 ∧ q.val = 0 then
          ∑ k : Fin 10, ∑ l : Fin 16000,
            FloatOps.absf (F := Ideal) (φ := .f32) ((x4 (ix2 k l) - x2 (ix2 k l)) * x3 (ix2 k l))
        else 0 := by
  unfold k0_pay1
  exact (shapeCast_ab_1ab_apply _ shapeCasts_S8x128_S1x8x128 u p q).trans (pay5_apply x2 x3 x4 p q)

/-- The named constant of the displacement average is one tenth. -/
theorem inv_10 : Named.named (F := Ideal) κ "inv_10" (φ := .f32) 0x3DCCCCCD#32 = ((1 / 10 : ℝ) : EReal) :=
  IdealRules.named_const.ideal_named_scalar _ _ _ _ rfl

/-- THE SECOND TILE at (u, p, q): the block's total of |x − (g · 1/10 + y)| at (0, 0), zero elsewhere. -/
theorem tile2_apply (x0 x1 x5 : Vec Ideal S3x16000 .f32) (u : Fin 1) (p : Fin 8) (q : Fin 128) :
    k0_pay2 (F := Ideal) (k0_pay3 x0 x1 x5) k0_pay4 (ix3 u p q)
      = if p.val = 0 ∧ q.val = 0 then
          ∑ k : Fin 3, ∑ l : Fin 16000,
            FloatOps.absf (F := Ideal) (φ := .f32)
              (x0 (ix2 k l) - (x5 (ix2 k l) * ((1 / 10 : ℝ) : EReal) + x1 (ix2 k l)))
        else 0 := by
  unfold k0_pay2 k0_pay3
  simp only [shapeCast_self]
  refine (shapeCast_ab_1ab_apply _ shapeCasts_S8x128_S1x8x128 u p q).trans ?_
  rw [select_apply, mask_apply]
  refine (congrArg (fun z => Scalar.select _ z _)
    (spread_total_apply (absf (subf x0 (addf (mulf x5 (broadcast S3x16000 (Named.named κ "inv_10" 0x3DCCCCCD#32))) x1)))
      _ _ _ _ _ _ _ _ _ p q)).trans ?_
  by_cases hc : p.val = 0 ∧ q.val = 0
  · rw [if_pos hc, if_pos hc, select_one]
    refine Finset.sum_congr rfl fun k _ => Finset.sum_congr rfl fun l _ => ?_
    show FloatOps.absf (F := Ideal) (φ := .f32) (x0 (ix2 k l) - (x5 (ix2 k l) * Named.named (F := Ideal) κ "inv_10" (φ := .f32) 0x3DCCCCCD#32 + x1 (ix2 k l))) = _
    rw [inv_10]
  · rw [if_neg hc, if_neg hc, select_zero]
    exact Ideal.ofBits_zero_f32

end Cert.KernelIdeal.Tile

end
-- ==== Proof.Blocks.lean ====
/-
  From what one grid step writes back to the two output arrays after the run.

  At step t every input window sits at columns 16000 t … 16000 t + 15999 of its array and both output windows at
  tile t. So the block a step writes back is tile t of ONE array-valued function of the input arrays: the step's total
  at the tile's corner, zero elsewhere (`Spec.tiles` of `Spec.step1` / `Spec.step2`). The 125 tiles cover the output
  array, so after the run the array is that function.
-/
import proofs.«113898_j56229711839859_2_alg».proof.Proof.Gen.KernelIdeal.Frame
import proofs.«113898_j56229711839859_2_alg».proof.Proof.Tile
import proofs.«113898_j56229711839859_2_alg».proof.Proof.Spec
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.Proof
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 125 grid points: at point t every input window is at block (0, t) and
    both output windows at block (t, 0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

theorem tlt (t : Fin cfg0.N) : t.val < 125 := t.isLt.trans_eq N_0

/-- A grid point as a step number below 125. -/
abbrev stepOf (t : Fin cfg0.N) : Fin 125 := ⟨t.val, tlt t⟩

/-- An element (k, l) of step t's block of window 0 sits in its array at (k, 16000 t + l). -/
theorem emb0 (t : Fin cfg0.N) (k : Fin 3) (l : Fin 16000) :
    ((cfg0.win 0).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_0.index t (0 : Fin 2) * 3 + 1 * k.val = k.val; omega
  | ⟨1, _⟩ => show win0_0.index t (1 : Fin 2) * 16000 + 1 * l.val = 16000 * t.val + l.val; omega

/-- So step t's block of ANY contents A of that array, read at (k, l), is A there. -/
theorem read0 (c : Dev nD) (A : Buf (Elt Ideal) ((c : Thread nD τ).loc main_v28)) (t : Fin cfg0.N) (k : Fin 3) (l : Fin 16000) :
    ((cfg0.win 0).blk t).view.read (Elt Ideal) A (ix2 k l) = A (ix2 k (Spec.Col (stepOf t) l)) := by
  show A (((cfg0.win 0).blk t).view.emb (ix2 k l)) = _
  rw [emb0]

/-- The block as the region finds the array. -/
theorem iblk0_apply (c : Dev nD) (t : Fin cfg0.N) (k : Fin 3) (l : Fin 16000) :
    iblk m c 0 t (ix2 k l) = V m c main_v28 (ix2 k (Spec.Col (stepOf t) l)) :=
  read0 c (V m c main_v28) t k l

/-- An element (k, l) of step t's block of window 1 sits in its array at (k, 16000 t + l). -/
theorem emb1 (t : Fin cfg0.N) (k : Fin 3) (l : Fin 16000) :
    ((cfg0.win 1).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_1.index t (0 : Fin 2) * 3 + 1 * k.val = k.val; omega
  | ⟨1, _⟩ => show win0_1.index t (1 : Fin 2) * 16000 + 1 * l.val = 16000 * t.val + l.val; omega

/-- So step t's block of ANY contents A of that array, read at (k, l), is A there. -/
theorem read1 (c : Dev nD) (A : Buf (Elt Ideal) ((c : Thread nD τ).loc main_v29)) (t : Fin cfg0.N) (k : Fin 3) (l : Fin 16000) :
    ((cfg0.win 1).blk t).view.read (Elt Ideal) A (ix2 k l) = A (ix2 k (Spec.Col (stepOf t) l)) := by
  show A (((cfg0.win 1).blk t).view.emb (ix2 k l)) = _
  rw [emb1]

/-- The block as the region finds the array. -/
theorem iblk1_apply (c : Dev nD) (t : Fin cfg0.N) (k : Fin 3) (l : Fin 16000) :
    iblk m c 1 t (ix2 k l) = V m c main_v29 (ix2 k (Spec.Col (stepOf t) l)) :=
  read1 c (V m c main_v29) t k l

/-- An element (k, l) of step t's block of window 2 sits in its array at (k, 16000 t + l). -/
theorem emb2 (t : Fin cfg0.N) (k : Fin 10) (l : Fin 16000) :
    ((cfg0.win 2).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_2.index t (0 : Fin 2) * 10 + 1 * k.val = k.val; omega
  | ⟨1, _⟩ => show win0_2.index t (1 : Fin 2) * 16000 + 1 * l.val = 16000 * t.val + l.val; omega

/-- So step t's block of ANY contents A of that array, read at (k, l), is A there. -/
theorem read2 (c : Dev nD) (A : Buf (Elt Ideal) ((c : Thread nD τ).loc main_v30)) (t : Fin cfg0.N) (k : Fin 10) (l : Fin 16000) :
    ((cfg0.win 2).blk t).view.read (Elt Ideal) A (ix2 k l) = A (ix2 k (Spec.Col (stepOf t) l)) := by
  show A (((cfg0.win 2).blk t).view.emb (ix2 k l)) = _
  rw [emb2]

/-- The block as the region finds the array. -/
theorem iblk2_apply (c : Dev nD) (t : Fin cfg0.N) (k : Fin 10) (l : Fin 16000) :
    iblk m c 2 t (ix2 k l) = V m c main_v30 (ix2 k (Spec.Col (stepOf t) l)) :=
  read2 c (V m c main_v30) t k l

/-- An element (k, l) of step t's block of window 3 sits in its array at (k, 16000 t + l). -/
theorem emb3 (t : Fin cfg0.N) (k : Fin 10) (l : Fin 16000) :
    ((cfg0.win 3).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_3.index t (0 : Fin 2) * 10 + 1 * k.val = k.val; omega
  | ⟨1, _⟩ => show win0_3.index t (1 : Fin 2) * 16000 + 1 * l.val = 16000 * t.val + l.val; omega

/-- So step t's block of ANY contents A of that array, read at (k, l), is A there. -/
theorem read3 (c : Dev nD) (A : Buf (Elt Ideal) ((c : Thread nD τ).loc main_v31)) (t : Fin cfg0.N) (k : Fin 10) (l : Fin 16000) :
    ((cfg0.win 3).blk t).view.read (Elt Ideal) A (ix2 k l) = A (ix2 k (Spec.Col (stepOf t) l)) := by
  show A (((cfg0.win 3).blk t).view.emb (ix2 k l)) = _
  rw [emb3]

/-- The block as the region finds the array. -/
theorem iblk3_apply (c : Dev nD) (t : Fin cfg0.N) (k : Fin 10) (l : Fin 16000) :
    iblk m c 3 t (ix2 k l) = V m c main_v31 (ix2 k (Spec.Col (stepOf t) l)) :=
  read3 c (V m c main_v31) t k l

/-- An element (k, l) of step t's block of window 4 sits in its array at (k, 16000 t + l). -/
theorem emb4 (t : Fin cfg0.N) (k : Fin 10) (l : Fin 16000) :
    ((cfg0.win 4).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_4.index t (0 : Fin 2) * 10 + 1 * k.val = k.val; omega
  | ⟨1, _⟩ => show win0_4.index t (1 : Fin 2) * 16000 + 1 * l.val = 16000 * t.val + l.val; omega

/-- So step t's block of ANY contents A of that array, read at (k, l), is A there. -/
theorem read4 (c : Dev nD) (A : Buf (Elt Ideal) ((c : Thread nD τ).loc main_v32)) (t : Fin cfg0.N) (k : Fin 10) (l : Fin 16000) :
    ((cfg0.win 4).blk t).view.read (Elt Ideal) A (ix2 k l) = A (ix2 k (Spec.Col (stepOf t) l)) := by
  show A (((cfg0.win 4).blk t).view.emb (ix2 k l)) = _
  rw [emb4]

/-- The block as the region finds the array. -/
theorem iblk4_apply (c : Dev nD) (t : Fin cfg0.N) (k : Fin 10) (l : Fin 16000) :
    iblk m c 4 t (ix2 k l) = V m c main_v32 (ix2 k (Spec.Col (stepOf t) l)) :=
  read4 c (V m c main_v32) t k l

/-- An element (k, l) of step t's block of window 5 sits in its array at (k, 16000 t + l). -/
theorem emb5 (t : Fin cfg0.N) (k : Fin 3) (l : Fin 16000) :
    ((cfg0.win 5).blk t).view.emb (ix2 k l) = ix2 k (Spec.Col (stepOf t) l) := by
  obtain ⟨a0, a1, b0, b1, c0, c1, d0, d1, e0, e1, f0, f1, -⟩ := idx_facts t
  funext a; apply Fin.ext
  match a with
  | ⟨0, _⟩ => show win0_5.index t (0 : Fin 2) * 3 + 1 * k.val = k.val; omega
  | ⟨1, _⟩ => show win0_5.index t (1 : Fin 2) * 16000 + 1 * l.val = 16000 * t.val + l.val; omega

/-- So step t's block of ANY contents A of that array, read at (k, l), is A there. -/
theorem read5 (c : Dev nD) (A : Buf (Elt Ideal) ((c : Thread nD τ).loc main_v33)) (t : Fin cfg0.N) (k : Fin 3) (l : Fin 16000) :
    ((cfg0.win 5).blk t).view.read (Elt Ideal) A (ix2 k l) = A (ix2 k (Spec.Col (stepOf t) l)) := by
  show A (((cfg0.win 5).blk t).view.emb (ix2 k l)) = _
  rw [emb5]

/-- The block as the region finds the array. -/
theorem iblk5_apply (c : Dev nD) (t : Fin cfg0.N) (k : Fin 3) (l : Fin 16000) :
    iblk m c 5 t (ix2 k l) = V m c main_v33 (ix2 k (Spec.Col (stepOf t) l)) :=
  read5 c (V m c main_v33) t k l

/-! ## The first output -/

/-- The first output array after the run: tile t holds step t's total of the first term at its corner. -/
def G6 (c : Dev nD) : S125x8x128.Idx → EReal :=
  Spec.tiles (Spec.step1 (V m c main_v30) (V m c main_v31) (V m c main_v32))

/-- What the body leaves in the first output's buffer at step t, read at (u, p, q). -/
theorem out6_apply (c : Dev nD) (t : Fin cfg0.N) (u : Fin 1) (p : Fin 8) (q : Fin 128) :
    out0_6 (iblk m c 0 t) (iblk m c 1 t) (iblk m c 2 t) (iblk m c 3 t) (iblk m c 4 t) (iblk m c 5 t) (ix3 u p q)
      = if p.val = 0 ∧ q.val = 0 then Spec.step1 (V m c main_v30) (V m c main_v31) (V m c main_v32) (stepOf t) else 0 := by
  unfold out0_6
  rw [View.canon_unit_zero hz3]
  simp only [View.ld_unit_zero (S := S10x16000) hz2]
  refine (Tile.tile1_apply (iblk m c 2 t) (iblk m c 3 t) (iblk m c 4 t) u p q).trans ?_
  refine if_congr Iff.rfl ?_ rfl
  unfold Spec.step1
  refine Finset.sum_congr rfl fun k _ => Finset.sum_congr rfl fun l _ => ?_
  rw [iblk4_apply, iblk2_apply, iblk3_apply]

/-- An element of tile t's block sits in the array at (t, p, q). -/
theorem emb6 (t : Fin cfg0.N) (u : Fin 1) (p : Fin 8) (q : Fin 128) :
    ((cfg0.win 6).blk t).view.emb (ix3 u p q) = ix3 (stepOf t) p q := by
  obtain ⟨a0, a1, b0, b1, c0, c1, d0, d1, e0, e1, f0, f1, g0, g1, g2, -⟩ := idx_facts t
  funext a; apply Fin.ext
  match a with
  | ⟨0, _⟩ => show win0_6.index t (0 : Fin 3) * 1 + 1 * u.val = t.val; omega
  | ⟨1, _⟩ => show win0_6.index t (1 : Fin 3) * 8 + 1 * p.val = p.val; omega
  | ⟨2, _⟩ => show win0_6.index t (2 : Fin 3) * 128 + 1 * q.val = q.val; omega

/-- Tile t's block of ANY contents G of the output array, read at (u, p, q), is G at (t, p, q). -/
theorem read6 (c : Dev nD) (G : Buf (Elt Ideal) ((c : Thread nD τ).loc main_v34_0)) (t : Fin cfg0.N) (u : Fin 1) (p : Fin 8) (q : Fin 128) :
    ((cfg0.win 6).blk t).view.read (Elt Ideal) G (ix3 u p q) = G (ix3 (stepOf t) p q) := by
  show G (((cfg0.win 6).blk t).view.emb (ix3 u p q)) = _
  rw [emb6]

/-- WHAT STEP t WRITES BACK to the first output is tile t of `G6`. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext j
  obtain ⟨u, p, q, rfl⟩ : ∃ (u : Fin 1) (p : Fin 8) (q : Fin 128), j = ix3 u p q := ⟨j 0, j 1, j 2, eq_ix3 j⟩
  refine Eq.trans ?_ (read6 c (G6 m c) t u p q).symm
  refine (out6_apply m c t u p q).trans ?_
  exact (Spec.tiles_apply _ (stepOf t) p q).symm

/-- An index of the first output array is in tile t's block iff each coordinate is in the block's range. -/
theorem mem_blk6 (t : Fin cfg0.N) (i : S125x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v34_0).slice (win0_6.rect t)).set ↔ _
  rw [View.set_slice_whole, Rect.mem_set_unit]
  exact Iff.rfl

/-- Every index of the first output array is in the block of the step its leading coordinate names. -/
theorem cover6 (i : S125x8x128.Idx) :
    ∃ t : Fin cfg0.N, (cfg0.win 6).flush t = true ∧ i ∈ ((cfg0.win 6).blk t).view.set := by
  have hi0 : (i 0).val < 125 := (i 0).isLt
  have hi1 : (i 1).val < 8 := (i 1).isLt
  have hi2 : (i 2).val < 128 := (i 2).isLt
  have ht : (⟨(i 0).val, hi0.trans_eq N_0.symm⟩ : Fin cfg0.N).val = (i 0).val := rfl
  generalize (⟨(i 0).val, hi0.trans_eq N_0.symm⟩ : Fin cfg0.N) = t at ht
  obtain ⟨a0, a1, b0, b1, c0, c1, d0, d1, e0, e1, f0, f1, g0, g1, g2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

/-- THE FIRST OUTPUT ARRAY after the run. -/
theorem final6 (c : Dev nD) : (dats m 0 c).arrAt 6 cfg0.N = G6 m c :=
  (dats m 0 c).arrAt_eq_of_cover 6 (G6 m c) (fun t _ => flushed6_eq m c t) cover6

/-! ## The second output -/

/-- The second output array after the run: tile t holds step t's total of the second term at its corner. -/
def G7 (c : Dev nD) : S125x8x128.Idx → EReal :=
  Spec.tiles (Spec.step2 (V m c main_v28) (V m c main_v29) (V m c main_v33))

/-- What the body leaves in the second output's buffer at step t, read at (u, p, q). -/
theorem out7_apply (c : Dev nD) (t : Fin cfg0.N) (u : Fin 1) (p : Fin 8) (q : Fin 128) :
    out0_7 (iblk m c 0 t) (iblk m c 1 t) (iblk m c 2 t) (iblk m c 3 t) (iblk m c 4 t) (iblk m c 5 t) (ix3 u p q)
      = if p.val = 0 ∧ q.val = 0 then Spec.step2 (V m c main_v28) (V m c main_v29) (V m c main_v33) (stepOf t) else 0 := by
  unfold out0_7
  rw [View.canon_unit_zero hz3]
  simp only [View.ld_unit_zero (S := S3x16000) hz2]
  refine (Tile.tile2_apply (iblk m c 0 t) (iblk m c 1 t) (iblk m c 5 t) u p q).trans ?_
  refine if_congr Iff.rfl ?_ rfl
  unfold Spec.step2
  refine Finset.sum_congr rfl fun k _ => Finset.sum_congr rfl fun l _ => ?_
  rw [iblk0_apply, iblk5_apply, iblk1_apply]

/-- An element of tile t's block sits in the array at (t, p, q). -/
theorem emb7 (t : Fin cfg0.N) (u : Fin 1) (p : Fin 8) (q : Fin 128) :
    ((cfg0.win 7).blk t).view.emb (ix3 u p q) = ix3 (stepOf t) p q := by
  obtain ⟨a0, a1, b0, b1, c0, c1, d0, d1, e0, e1, f0, f1, g0, g1, g2, h0, h1, h2⟩ := idx_facts t
  funext a; apply Fin.ext
  match a with
  | ⟨0, _⟩ => show win0_7.index t (0 : Fin 3) * 1 + 1 * u.val = t.val; omega
  | ⟨1, _⟩ => show win0_7.index t (1 : Fin 3) * 8 + 1 * p.val = p.val; omega
  | ⟨2, _⟩ => show win0_7.index t (2 : Fin 3) * 128 + 1 * q.val = q.val; omega

/-- Tile t's block of ANY contents G of the output array, read at (u, p, q), is G at (t, p, q). -/
theorem read7 (c : Dev nD) (G : Buf (Elt Ideal) ((c : Thread nD τ).loc main_v34_1)) (t : Fin cfg0.N) (u : Fin 1) (p : Fin 8) (q : Fin 128) :
    ((cfg0.win 7).blk t).view.read (Elt Ideal) G (ix3 u p q) = G (ix3 (stepOf t) p q) := by
  show G (((cfg0.win 7).blk t).view.emb (ix3 u p q)) = _
  rw [emb7]

/-- WHAT STEP t WRITES BACK to the second output is tile t of `G7`. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext j
  obtain ⟨u, p, q, rfl⟩ : ∃ (u : Fin 1) (p : Fin 8) (q : Fin 128), j = ix3 u p q := ⟨j 0, j 1, j 2, eq_ix3 j⟩
  refine Eq.trans ?_ (read7 c (G7 m c) t u p q).symm
  refine (out7_apply m c t u p q).trans ?_
  exact (Spec.tiles_apply _ (stepOf t) p q).symm

/-- An index of the second output array is in tile t's block iff each coordinate is in the block's range. -/
theorem mem_blk7 (t : Fin cfg0.N) (i : S125x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v34_1).slice (win0_7.rect t)).set ↔ _
  rw [View.set_slice_whole, Rect.mem_set_unit]
  exact Iff.rfl

/-- Every index of the second output array is in the block of the step its leading coordinate names. -/
theorem cover7 (i : S125x8x128.Idx) :
    ∃ t : Fin cfg0.N, (cfg0.win 7).flush t = true ∧ i ∈ ((cfg0.win 7).blk t).view.set := by
  have hi0 : (i 0).val < 125 := (i 0).isLt
  have hi1 : (i 1).val < 8 := (i 1).isLt
  have hi2 : (i 2).val < 128 := (i 2).isLt
  have ht : (⟨(i 0).val, hi0.trans_eq N_0.symm⟩ : Fin cfg0.N).val = (i 0).val := rfl
  generalize (⟨(i 0).val, hi0.trans_eq N_0.symm⟩ : Fin cfg0.N) = t at ht
  obtain ⟨a0, a1, b0, b1, c0, c1, d0, d1, e0, e1, f0, f1, g0, g1, g2, h0, h1, h2⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega

/-- THE SECOND OUTPUT ARRAY after the run. -/
theorem final7 (c : Dev nD) : (dats m 0 c).arrAt 7 cfg0.N = G7 m c :=
  (dats m 0 c).arrAt_eq_of_cover 7 (G7 m c) (fun t _ => flushed7_eq m c t) cover7

end Cert.KernelIdeal.Blocks

end
-- ==== Proof.Entry.lean ====
/-
  The arrays the kernel's six input windows range over, as the region finds them.

  Before the pallas_call the host code transposes each table so that the 2 000 000 points run along the lanes: the
  points, the initial neighbour positions, the neighbour distances and the neighbour weights are transposed as given;
  the squared neighbour distances and the summed neighbour displacements are first computed — by the same gathers,
  differences and sums the reference uses, so they are stated here as the reference's own stages — and then transposed.
-/
import proofs.«113898_j56229711839859_2_alg».proof.Proof.Gen.KernelIdeal.Frame
import proofs.«113898_j56229711839859_2_alg».proof.Proof.Gen.ReferenceIdeal.Read
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Window 0 ranges over the points, transposed. -/
theorem V_v28 (c : Dev nD) : (V m c main_v28 : S3x2000000.Idx → EReal)
    = transpose S3x2000000 [1, 0] (m ((c : Thread nD τ).loc main_arg0)) transposes_S2000000x3_S3x2000000_1_0 := by
  show StableHlo.after hostOps0 (fun b => m (c, b)) (Proc.devRef .tc main_v28) = _
  after_results

/-- Window 1 ranges over the initial neighbour positions, transposed. -/
theorem V_v29 (c : Dev nD) : (V m c main_v29 : S3x2000000.Idx → EReal)
    = transpose S3x2000000 [1, 0] (m ((c : Thread nD τ).loc main_arg1)) transposes_S2000000x3_S3x2000000_1_0 := by
  show StableHlo.after hostOps0 (fun b => m (c, b)) (Proc.devRef .tc main_v29) = _
  after_results

/-- Window 2 ranges over the neighbour distances, transposed. -/
theorem V_v30 (c : Dev nD) : (V m c main_v30 : S10x2000000.Idx → EReal)
    = transpose S10x2000000 [1, 0] (m ((c : Thread nD τ).loc main_arg3)) transposes_S2000000x10_S10x2000000_1_0 := by
  show StableHlo.after hostOps0 (fun b => m (c, b)) (Proc.devRef .tc main_v30) = _
  after_results

/-- Window 3 ranges over the neighbour weights, transposed. -/
theorem V_v31 (c : Dev nD) : (V m c main_v31 : S10x2000000.Idx → EReal)
    = transpose S10x2000000 [1, 0] (m ((c : Thread nD τ).loc main_arg4)) transposes_S2000000x10_S10x2000000_1_0 := by
  show StableHlo.after hostOps0 (fun b => m (c, b)) (Proc.devRef .tc main_v31) = _
  after_results

set_option maxRecDepth 8192 in
set_option maxHeartbeats 2000000 in
/-- Window 4 ranges over the squared distances to the neighbours — the reference's own stage — transposed. -/
theorem V_v32 (c : Dev nD) : (V m c main_v32 : S10x2000000.Idx → EReal)
    = transpose S10x2000000 [1, 0]
        (Cert.ReferenceIdeal.Read.val_main_v11 (F := Ideal) (m ((c : Thread nD τ).loc main_arg0)) (m ((c : Thread nD τ).loc main_arg2)))
        transposes_S2000000x10_S10x2000000_1_0 := by
  show StableHlo.after hostOps0 (fun b => m (c, b)) (Proc.devRef .tc main_v32) = _
  after_results_simp <;> rfl

set_option maxRecDepth 8192 in
set_option maxHeartbeats 2000000 in
/-- Window 5 ranges over the neighbour displacements summed over the neighbours — the reference's own stage — transposed. -/
theorem V_v33 (c : Dev nD) : (V m c main_v33 : S3x2000000.Idx → EReal)
    = transpose S3x2000000 [1, 0]
        (Cert.ReferenceIdeal.Read.val_main_v25 (F := Ideal) (m ((c : Thread nD τ).loc main_arg0)) (m ((c : Thread nD τ).loc main_arg1)) (m ((c : Thread nD τ).loc main_arg2)))
        transposes_S2000000x3_S3x2000000_1_0 := by
  show StableHlo.after hostOps0 (fun b => m (c, b)) (Proc.devRef .tc main_v33) = _
  after_results_simp <;> rfl

end Cert.KernelIdeal.Entry

end
-- ==== Proof.Value.lean ====
/-
  The kernel program's run, with its result named.

  After the region the host code sums each of the two output arrays over all its 125 × 8 × 128 entries, divides the
  sums by 2·10⁷ and 6·10⁶, and adds the quotients (the second weighted by 1). The output arrays are tiles holding the
  125 step totals at their corners (Blocks), the step totals add up to the whole-table sums (Spec), and the windows'
  arrays are the transposed tables (Entry): so the result is the loss of the argument arrays.
-/
import proofs.«113898_j56229711839859_2_alg».proof.Proof.Gen.KernelIdeal.Frame
import proofs.«113898_j56229711839859_2_alg».proof.Proof.Blocks
import proofs.«113898_j56229711839859_2_alg».proof.Proof.Entry
import proofs.«113898_j56229711839859_2_alg».proof.Proof.Spec
import proofs.«113898_j56229711839859_2_alg».proof.Proof.Bridge
import Idealize.ShloMosaic.Lib.StableHlo.Run
import Idealize.ShloMosaic.PureOps.Ideal.Laws

set_option maxRecDepth 16384

noncomputable section

open scoped BigOperators

namespace Cert.KernelIdeal.Value

open Idealize.ShloMosaic Idealize.ShloMosaic.TcCoe Idealize.SL.Sem Idealize.ShloMosaic.StableHlo
open Cert.KernelIdeal Cert.KernelIdeal.Gen Cert.Proof

variable (m : (ℓ : Loc nD τ sig) → Buf (Elt Ideal) ℓ) (ρ : Dev nD → PrngReg)

/-- The host lines after the region, as one function of the two output arrays. -/
def tail (A6 A7 : S125x8x128.Idx → EReal) : S_.Idx → EReal :=
  addf (Host.divf (Host.reduceAdd (F := Ideal) A6 (constant (F := Ideal) S_ .f32 0x00000000#32) reducesTo_S125x8x128_S_d0_1_2 h_S_) (constant (F := Ideal) S_ .f32 0x4B989680#32))
    (mulf (constant (F := Ideal) S_ .f32 0x3F800000#32) (Host.divf (Host.reduceAdd (F := Ideal) A7 (constant (F := Ideal) S_ .f32 0x00000000#32) reducesTo_S125x8x128_S_d0_1_2 h_S_) (constant (F := Ideal) S_ .f32 0x4AB71B00#32)))

/-- At the extended reals that function is the loss of the two arrays' totals. -/
theorem tail_apply (A6 A7 : S125x8x128.Idx → EReal) (i : S_.Idx) :
    tail A6 A7 i = Spec.loss (∑ j, A6 j) (∑ j, A7 j) := by
  unfold tail Spec.loss
  show FloatOps.addf (FloatOps.hostDivf (Host.reduceAdd (F := Ideal) A6 _ reducesTo_S125x8x128_S_d0_1_2 h_S_ i) _) (FloatOps.mulf _ (FloatOps.hostDivf (Host.reduceAdd (F := Ideal) A7 _ reducesTo_S125x8x128_S_d0_1_2 h_S_ i) _)) = _
  simp only [Host.reduceAdd, Ideal.hostReduceAdd_def]
  rw [Ideal.hostReduceAdd_total reducesTo_S125x8x128_S_d0_1_2 (fun b => b.elim0) A6 _ i,
    Ideal.hostReduceAdd_total reducesTo_S125x8x128_S_d0_1_2 (fun b => b.elim0) A7 _ i]
  rfl

/-- The program's result buffer after the host lines that follow the region: those lines applied to the two output arrays
    as the region leaves them. -/
theorem tail_eq (c : Dev nD) :
    Pipeline.afterTail₀ cfgs (dats m) 0 (V0 m) [hostOps1] c main_v40
      = tail (Pipeline.withArrays (cfgs 0).spec c (V0 m c) (fun w => (dats m 0 c).arrAt w (cfgs 0).N) (Proc.devRef .tc main_v34_0))
          (Pipeline.withArrays (cfgs 0).spec c (V0 m c) (fun w => (dats m 0 c).arrAt w (cfgs 0).N) (Proc.devRef .tc main_v34_1)) := by
  unfold Pipeline.afterTail₀
  show StableHlo.after hostOps1 _ (Proc.devRef .tc main_v40) = _
  after_results
  rfl

/-- The first output array as the region leaves it. -/
theorem left6 (c : Dev nD) :
    Pipeline.withArrays (cfgs 0).spec c (V0 m c) (fun w => (dats m 0 c).arrAt w (cfgs 0).N) (Proc.devRef .tc main_v34_0)
      = Blocks.G6 m c :=
  (Pipeline.withArrays_arr spec0 launch0.win.arr_inj c _ _ 6).trans (Blocks.final6 m c)

/-- The second output array as the region leaves it. -/
theorem left7 (c : Dev nD) :
    Pipeline.withArrays (cfgs 0).spec c (V0 m c) (fun w => (dats m 0 c).arrAt w (cfgs 0).N) (Proc.devRef .tc main_v34_1)
      = Blocks.G7 m c :=
  (Pipeline.withArrays_arr spec0 launch0.win.arr_inj c _ _ 7).trans (Blocks.final7 m c)

/-- The first output array totals to the first table's whole sum. -/
theorem sum6 (c : Dev nD) :
    ∑ i, Blocks.G6 m c i = Bridge.sum1 (m ((c : Thread nD τ).loc main_arg0)) (m ((c : Thread nD τ).loc main_arg2)) (m ((c : Thread nD τ).loc main_arg3)) (m ((c : Thread nD τ).loc main_arg4)) := by
  unfold Blocks.G6 Bridge.sum1
  rw [Spec.sum_tiles, Entry.V_v30, Entry.V_v31, Entry.V_v32]
  exact Spec.total1 _ _ _ _

/-- The second output array totals to the second table's whole sum. -/
theorem sum7 (c : Dev nD) :
    ∑ i, Blocks.G7 m c i = Bridge.sum2 (m ((c : Thread nD τ).loc main_arg0)) (m ((c : Thread nD τ).loc main_arg1)) (m ((c : Thread nD τ).loc main_arg2)) := by
  unfold Blocks.G7 Bridge.sum2
  rw [Spec.sum_tiles, Entry.V_v28, Entry.V_v29, Entry.V_v33]
  exact Spec.total2 _ _ _ _

/-- THE RESULT: the loss of the argument arrays. -/
theorem result_eq (c : Dev nD) :
    Pipeline.afterTail₀ cfgs (dats m) 0 (V0 m) [hostOps1] c main_v40
      = fun _ => Bridge.lossOf (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_eq, left6, left7]
  funext i
  rw [tail_apply, sum6, sum7]
  rfl

/-- Every weakly fair execution of the kernel program terminates with the result buffer at the loss of the argument
    arrays and the argument arrays unchanged. -/
theorem run : θ_run defs (onTc (τ := τ) (main (F := Ideal))) ⟨m, fun _ => 0, ρ⟩ fun r => ∀ c : Dev nD,
      r.2.mem ((c.tc : Thread nD τ).loc main_v40)
        = (fun _ => Bridge.lossOf (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v40 (Pipeline.mem_restRefs_of main_v40 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.lean ====
/-
  The claim: the kernel program and its reference compute the same loss on the extended reals.

  Both programs take N = 2 000 000 points with 3 coordinates, for each point the indices, given distances and weights of
  its 10 neighbours, and the initial positions. With s (i, k) the squared distance from point i to its k-th neighbour and
  g (i, ·) the sum over k of (neighbour's position − neighbour's initial position), the loss is

      ( Σ_{i,k} |(s (i,k) − dist (i,k)) · weight (i,k)| ) / 20 000 000  +  1 · ( Σ_{i,d} |x (i,d) − (g (i,d) / 10 + init (i,d))| ) / 6 000 000 .

  The reference sums the two tables whole (Bridge: its result stage, read one operation at a time). The kernel program
  computes s and g by the reference's own host operations, transposes every table so that the points run along the lanes
  (Entry), and lets a grid of 125 steps each total 16 000 columns — lanes first, then down the column of row sums — into
  the corner of an 8 × 128 tile of zeros, multiplying by the named constant one tenth where the reference divides by ten
  (Tile); the block a step writes back is a tile of one function of the input arrays, and the 125 tiles cover each output
  array (Blocks); the host code then sums the tiles and forms the two quotients (Value). The two sides meet by
  regrouping finite sums — a sum over 2 000 000 rows taken in 125 runs of 16 000, zero entries dropped, rows and columns
  exchanged — which holds in any commutative monoid, and by x / 10 = x · (1/10) on every extended real (Spec, Sums): no
  entry needs to be finite, so the precondition is never opened.

  The three frames are the generated ones (the reference's is its generated run with the result dropped); the one rewrite
  of the idealization, the constant 0.1 named one tenth, is the rule's own statement.
-/
import proofs.«113898_j56229711839859_2_alg».proof.Defs
import proofs.«113898_j56229711839859_2_alg».proof.Proof.Gen.Kernel
import proofs.«113898_j56229711839859_2_alg».proof.Proof.Gen.Kernel.Frame
import proofs.«113898_j56229711839859_2_alg».proof.Proof.Gen.KernelIdeal
import proofs.«113898_j56229711839859_2_alg».proof.Proof.Gen.KernelIdeal.Frame
import proofs.«113898_j56229711839859_2_alg».proof.Proof.Gen.ReferenceIdeal
import proofs.«113898_j56229711839859_2_alg».proof.Proof.Gen.Pre_finite_inputs
import proofs.«113898_j56229711839859_2_alg».proof.Proof.Gen.ReferenceIdeal.Run
import proofs.«113898_j56229711839859_2_alg».proof.Proof.Gen.ReferenceIdeal.Read
import proofs.«113898_j56229711839859_2_alg».proof.Proof.Bridge
import proofs.«113898_j56229711839859_2_alg».proof.Proof.Value
import Idealize.ShloMosaic.PureOps.IdealRules
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the constant 0.1 of the displacement average stands for one tenth. -/
theorem preserves : Cert.preserves_Kernel_KernelIdeal :=
  IdealRules.named_const.statement Cert.KernelIdeal.κ "inv_10" .f32 0x3DCCCCCD#32 ((1 / 10 : ℝ) : EReal) rfl

/-- From memories agreeing on the arguments both idealized programs end with the loss of the arguments. -/
theorem algebraic : Cert.algebraic_KernelIdeal_ReferenceIdeal := by
  intro m ρ m' ρ' _ hagree
  refine ⟨fun c => (fun _ => Bridge.lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    Cert.KernelIdeal.Value.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v34_eq _ _ _ _ _)).trans ?_
  rw [Bridge.ref_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
